-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x224x224 : Shape := ⟨4, ![8, 64, 224, 224]⟩
abbrev S1x64x9x1x1 : Shape := ⟨5, ![1, 64, 9, 1, 1]⟩
abbrev S_ : Shape := ⟨0, ![]⟩

class Facts : Prop where
  bcast_S_S8x64x224x224 : S_.BroadcastsInDim S8x64x224x224 (![] : Fin 0 → Fin S8x64x224x224.rank)
  reducesTo_S8x64x224x224_S_d0_1_2_3 : S8x64x224x224.ReducesTo [0, 1, 2, 3] S_
  h_S_ : 0 < S_.numel
  bcast_S_S1x64x9x1x1 : S_.BroadcastsInDim S1x64x9x1x1 (![] : Fin 0 → Fin S1x64x9x1x1.rank)
  reducesTo_S1x64x9x1x1_S_d0_1_2_3_4 : S1x64x9x1x1.ReducesTo [0, 1, 2, 3, 4] S_

variable [Facts]

def fn {F : FTy → Type} [FloatOps F] (main_arg0 : FVec F S8x64x224x224 .f32) (main_arg1 : FVec F S1x64x9x1x1 .f32) : IVec S_ 1 :=
  let main_v0 : FVec F S8x64x224x224 .f32 := Host.absf main_arg0
  let main_cst : FVec F S_ .f32 := constant S_ .f32 0x7F800000#32
  let main_v1 : FVec F S8x64x224x224 .f32 := broadcastInDim S8x64x224x224 ![] bcast_S_S8x64x224x224 main_cst
  let main_v2 : IVec S8x64x224x224 1 := cmpf .olt main_v0 main_v1
  let main_c : IVec S_ 1 := constantI S_ 1 1#1
  let main_v3 : IVec S_ 1 := (fun x v => Host.reduce IntOp.andi x v reducesTo_S8x64x224x224_S_d0_1_2_3 h_S_) main_v2 main_c
  let main_v4 : FVec F S1x64x9x1x1 .f32 := Host.absf main_arg1
  let main_cst_0 : FVec F S_ .f32 := constant S_ .f32 0x7F800000#32
  let main_v5 : FVec F S1x64x9x1x1 .f32 := broadcastInDim S1x64x9x1x1 ![] bcast_S_S1x64x9x1x1 main_cst_0
  let main_v6 : IVec S1x64x9x1x1 1 := cmpf .olt main_v4 main_v5
  let main_c_1 : IVec S_ 1 := constantI S_ 1 1#1
  let main_v7 : IVec S_ 1 := (fun x v => Host.reduce IntOp.andi x v reducesTo_S1x64x9x1x1_S_d0_1_2_3_4 h_S_) main_v6 main_c_1
  let main_v8 : IVec S_ 1 := andi main_v3 main_v7
  main_v8
-- ==== Kernel.lean ====
abbrev S8x64x224x224 : Shape := ⟨4, ![8, 64, 224, 224]⟩
abbrev S1x64x9x1x1 : Shape := ⟨5, ![1, 64, 9, 1, 1]⟩
abbrev S1x16x224x224 : Shape := ⟨4, ![1, 16, 224, 224]⟩
abbrev S1x16x9x1x1 : Shape := ⟨5, ![1, 16, 9, 1, 1]⟩
abbrev S1x16x226x226 : Shape := ⟨4, ![1, 16, 226, 226]⟩
abbrev S1x16x1x226 : Shape := ⟨4, ![1, 16, 1, 226]⟩
abbrev S1x16x226x1 : Shape := ⟨4, ![1, 16, 226, 1]⟩
abbrev S1x16x1x1x1 : Shape := ⟨5, ![1, 16, 1, 1, 1]⟩
abbrev S1x16x1x1 : Shape := ⟨4, ![1, 16, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S8x64x224x224, .f32⟩
  | .hbm, ⟨1, _⟩ => ⟨S1x64x9x1x1, .f32⟩
  | .hbm, ⟨2, _⟩ => ⟨S8x64x224x224, .f32⟩
  | .local _ .vmem, ⟨0, _⟩ => ⟨S1x16x224x224, .f32⟩
  | .local _ .vmem, ⟨1, _⟩ => ⟨S1x16x224x224, .f32⟩
  | .local _ .vmem, ⟨2, _⟩ => ⟨S1x16x9x1x1, .f32⟩
  | .local _ .vmem, ⟨3, _⟩ => ⟨S1x16x9x1x1, .f32⟩
  | .local _ .vmem, ⟨4, _⟩ => ⟨S1x16x224x224, .f32⟩
  | .local _ .vmem, ⟨5, _⟩ => ⟨S1x16x224x224, .f32⟩
  | .local _ .vmem, ⟨6, _⟩ => ⟨S1x16x226x226, .f32⟩
  | _, _ => ⟨S8x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x9x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x16x226x226_S1x16x1x226_0_0_0_0 : ∀ a, (![0, 0, 0, 0] : Fin 4 → Nat) a + S1x16x1x226.size a ≤ S1x16x226x226.size a
  h_S1x16x1x226 : 0 < S1x16x1x226.numel
  shapeCasts_S1x16x1x226_S1x16x1x226 : S1x16x1x226.ShapeCasts S1x16x1x226
  inb_S1x16x226x226_S1x16x1x226_0_0_225_0 : ∀ a, (![0, 0, 225, 0] : Fin 4 → Nat) a + S1x16x1x226.size a ≤ S1x16x226x226.size a
  inb_S1x16x226x226_S1x16x226x1_0_0_0_0 : ∀ a, (![0, 0, 0, 0] : Fin 4 → Nat) a + S1x16x226x1.size a ≤ S1x16x226x226.size a
  h_S1x16x226x1 : 0 < S1x16x226x1.numel
  shapeCasts_S1x16x226x1_S1x16x226x1 : S1x16x226x1.ShapeCasts S1x16x226x1
  inb_S1x16x226x226_S1x16x226x1_0_0_0_225 : ∀ a, (![0, 0, 0, 225] : Fin 4 → Nat) a + S1x16x226x1.size a ≤ S1x16x226x226.size a
  inb_S1x16x224x224_S1x16x224x224_0_0_0_0 : ∀ a, (![0, 0, 0, 0] : Fin 4 → Nat) a + S1x16x224x224.size a ≤ S1x16x224x224.size a
  h_S1x16x224x224 : 0 < S1x16x224x224.numel
  inb_S1x16x226x226_S1x16x224x224_0_0_1_1 : ∀ a, (![0, 0, 1, 1] : Fin 4 → Nat) a + S1x16x224x224.size a ≤ S1x16x226x226.size a
  shapeCasts_S1x16x224x224_S1x16x224x224 : S1x16x224x224.ShapeCasts S1x16x224x224
  inb_S1x16x226x226_S1x16x224x224_0_0_0_0 : ∀ a, (![0, 0, 0, 0] : Fin 4 → Nat) a + S1x16x224x224.size a ≤ S1x16x226x226.size a
  inb_S1x16x9x1x1_S1x16x1x1x1_0_0_0_0_0 : ∀ a, (![0, 0, 0, 0, 0] : Fin 5 → Nat) a + S1x16x1x1x1.size a ≤ S1x16x9x1x1.size a
  h_S1x16x1x1x1 : 0 < S1x16x1x1x1.numel
  shapeCasts_S1x16x1x1x1_S1x16x1x1 : S1x16x1x1x1.ShapeCasts S1x16x1x1
  broadcasts_S1x16x1x1_S1x16x224x224 : S1x16x1x1.Broadcasts S1x16x224x224
  inb_S1x16x226x226_S1x16x224x224_0_0_0_1 : ∀ a, (![0, 0, 0, 1] : Fin 4 → Nat) a + S1x16x224x224.size a ≤ S1x16x226x226.size a
  inb_S1x16x9x1x1_S1x16x1x1x1_0_0_1_0_0 : ∀ a, (![0, 0, 1, 0, 0] : Fin 5 → Nat) a + S1x16x1x1x1.size a ≤ S1x16x9x1x1.size a
  inb_S1x16x226x226_S1x16x224x224_0_0_0_2 : ∀ a, (![0, 0, 0, 2] : Fin 4 → Nat) a + S1x16x224x224.size a ≤ S1x16x226x226.size a
  inb_S1x16x9x1x1_S1x16x1x1x1_0_0_2_0_0 : ∀ a, (![0, 0, 2, 0, 0] : Fin 5 → Nat) a + S1x16x1x1x1.size a ≤ S1x16x9x1x1.size a
  inb_S1x16x226x226_S1x16x224x224_0_0_1_0 : ∀ a, (![0, 0, 1, 0] : Fin 4 → Nat) a + S1x16x224x224.size a ≤ S1x16x226x226.size a
  inb_S1x16x9x1x1_S1x16x1x1x1_0_0_3_0_0 : ∀ a, (![0, 0, 3, 0, 0] : Fin 5 → Nat) a + S1x16x1x1x1.size a ≤ S1x16x9x1x1.size a
  inb_S1x16x9x1x1_S1x16x1x1x1_0_0_4_0_0 : ∀ a, (![0, 0, 4, 0, 0] : Fin 5 → Nat) a + S1x16x1x1x1.size a ≤ S1x16x9x1x1.size a
  inb_S1x16x226x226_S1x16x224x224_0_0_1_2 : ∀ a, (![0, 0, 1, 2] : Fin 4 → Nat) a + S1x16x224x224.size a ≤ S1x16x226x226.size a
  inb_S1x16x9x1x1_S1x16x1x1x1_0_0_5_0_0 : ∀ a, (![0, 0, 5, 0, 0] : Fin 5 → Nat) a + S1x16x1x1x1.size a ≤ S1x16x9x1x1.size a
  inb_S1x16x226x226_S1x16x224x224_0_0_2_0 : ∀ a, (![0, 0, 2, 0] : Fin 4 → Nat) a + S1x16x224x224.size a ≤ S1x16x226x226.size a
  inb_S1x16x9x1x1_S1x16x1x1x1_0_0_6_0_0 : ∀ a, (![0, 0, 6, 0, 0] : Fin 5 → Nat) a + S1x16x1x1x1.size a ≤ S1x16x9x1x1.size a
  inb_S1x16x226x226_S1x16x224x224_0_0_2_1 : ∀ a, (![0, 0, 2, 1] : Fin 4 → Nat) a + S1x16x224x224.size a ≤ S1x16x226x226.size a
  inb_S1x16x9x1x1_S1x16x1x1x1_0_0_7_0_0 : ∀ a, (![0, 0, 7, 0, 0] : Fin 5 → Nat) a + S1x16x1x1x1.size a ≤ S1x16x9x1x1.size a
  inb_S1x16x226x226_S1x16x224x224_0_0_2_2 : ∀ a, (![0, 0, 2, 2] : Fin 4 → Nat) a + S1x16x224x224.size a ≤ S1x16x226x226.size a
  inb_S1x16x9x1x1_S1x16x1x1x1_0_0_8_0_0 : ∀ a, (![0, 0, 8, 0, 0] : Fin 5 → Nat) a + S1x16x1x1x1.size a ≤ S1x16x9x1x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x224x224.size a ≤ S8x64x224x224.size a
  hwx0_0 : ∀ i : grid0.Coords, EltTy.bits .f32 = 32 ∨ (Rect.block (s := S8x64x224x224) S1x16x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x9x1x1.size a ≤ S1x64x9x1x1.size a
  hwx0_1 : ∀ i : grid0.Coords, EltTy.bits .f32 = 32 ∨ (Rect.block (s := S1x64x9x1x1) S1x16x9x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x224x224.size a ≤ S8x64x224x224.size a
  hwx0_2 : ∀ i : grid0.Coords, EltTy.bits .f32 = 32 ∨ (Rect.block (s := S8x64x224x224) S1x16x224x224.size (cc0_transform_2 i) (hinb0_2 i)).WholeWords (EltTy.packing .f32)

variable [Facts₀]

abbrev win0_0 : Pipeline.Window sig grid0 :=
  Pipeline.Window.ofSpec (Memref.whole main_arg0) S1x16x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x9x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x224x224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x224x224 : Shape := ⟨4, ![8, 64, 224, 224]⟩
abbrev S1x64x9x1x1 : Shape := ⟨5, ![1, 64, 9, 1, 1]⟩
abbrev S_ : Shape := ⟨0, ![]⟩
abbrev S8x64x226x226 : Shape := ⟨4, ![8, 64, 226, 226]⟩
abbrev S8x64x1x224x224 : Shape := ⟨5, ![8, 64, 1, 224, 224]⟩
abbrev S8x64x9x224x224 : Shape := ⟨5, ![8, 64, 9, 224, 224]⟩

abbrev nBuf : Space → Nat
  | .hbm => 28
  | .vmem => 0
  | .smem => 0
  | _ => 0

abbrev bufTy : (tb : Table) → Fin (tcTables nBuf tb) → BufTy
  | .hbm, ⟨0, _⟩ => ⟨S8x64x224x224, .f32⟩
  | .hbm, ⟨1, _⟩ => ⟨S1x64x9x1x1, .f32⟩
  | .hbm, ⟨2, _⟩ => ⟨S_, .i32⟩
  | .hbm, ⟨3, _⟩ => ⟨S_, .f32⟩
  | .hbm, ⟨4, _⟩ => ⟨S8x64x226x226, .f32⟩
  | .hbm, ⟨5, _⟩ => ⟨S8x64x224x224, .f32⟩
  | .hbm, ⟨6, _⟩ => ⟨S8x64x224x224, .f32⟩
  | .hbm, ⟨7, _⟩ => ⟨S8x64x224x224, .f32⟩
  | .hbm, ⟨8, _⟩ => ⟨S8x64x224x224, .f32⟩
  | .hbm, ⟨9, _⟩ => ⟨S8x64x224x224, .f32⟩
  | .hbm, ⟨10, _⟩ => ⟨S8x64x224x224, .f32⟩
  | .hbm, ⟨11, _⟩ => ⟨S8x64x224x224, .f32⟩
  | .hbm, ⟨12, _⟩ => ⟨S8x64x224x224, .f32⟩
  | .hbm, ⟨13, _⟩ => ⟨S8x64x224x224, .f32⟩
  | .hbm, ⟨14, _⟩ => ⟨S8x64x1x224x224, .f32⟩
  | .hbm, ⟨15, _⟩ => ⟨S8x64x1x224x224, .f32⟩
  | .hbm, ⟨16, _⟩ => ⟨S8x64x1x224x224, .f32⟩
  | .hbm, ⟨17, _⟩ => ⟨S8x64x1x224x224, .f32⟩
  | .hbm, ⟨18, _⟩ => ⟨S8x64x1x224x224, .f32⟩
  | .hbm, ⟨19, _⟩ => ⟨S8x64x1x224x224, .f32⟩
  | .hbm, ⟨20, _⟩ => ⟨S8x64x1x224x224, .f32⟩
  | .hbm, ⟨21, _⟩ => ⟨S8x64x1x224x224, .f32⟩
  | .hbm, ⟨22, _⟩ => ⟨S8x64x1x224x224, .f32⟩
  | .hbm, ⟨23, _⟩ => ⟨S8x64x9x224x224, .f32⟩
  | .hbm, ⟨24, _⟩ => ⟨S8x64x9x224x224, .f32⟩
  | .hbm, ⟨25, _⟩ => ⟨S8x64x9x224x224, .f32⟩
  | .hbm, ⟨26, _⟩ => ⟨S_, .f32⟩
  | .hbm, ⟨27, _⟩ => ⟨S8x64x224x224, .f32⟩
  | _, _ => ⟨S8x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩

abbrev nD : Nat := 1
abbrev τ : Topo := Topo.v7x

variable {F : FTy → Type} [FloatOps F]

class Facts₀ : Prop where
  pads_S8x64x224x224_S8x64x226x226_000_000_110_110 : S8x64x224x224.Pads (![0, 0, 1, 1] : Fin 4 → Nat) ![0, 0, 1, 1] ![0, 0, 0, 0] S8x64x226x226
  h_S_ : 0 < S_.numel
  slices_S8x64x226x226_S8x64x224x224_0_0_0_0 : S8x64x226x226.Slices ![0, 0, 0, 0] S8x64x224x224
  slices_S8x64x226x226_S8x64x224x224_0_0_0_1 : S8x64x226x226.Slices ![0, 0, 0, 1] S8x64x224x224
  slices_S8x64x226x226_S8x64x224x224_0_0_0_2 : S8x64x226x226.Slices ![0, 0, 0, 2] S8x64x224x224
  slices_S8x64x226x226_S8x64x224x224_0_0_1_0 : S8x64x226x226.Slices ![0, 0, 1, 0] S8x64x224x224
  slices_S8x64x226x226_S8x64x224x224_0_0_1_1 : S8x64x226x226.Slices ![0, 0, 1, 1] S8x64x224x224
  slices_S8x64x226x226_S8x64x224x224_0_0_1_2 : S8x64x226x226.Slices ![0, 0, 1, 2] S8x64x224x224
  slices_S8x64x226x226_S8x64x224x224_0_0_2_0 : S8x64x226x226.Slices ![0, 0, 2, 0] S8x64x224x224
  slices_S8x64x226x226_S8x64x224x224_0_0_2_1 : S8x64x226x226.Slices ![0, 0, 2, 1] S8x64x224x224
  slices_S8x64x226x226_S8x64x224x224_0_0_2_2 : S8x64x226x226.Slices ![0, 0, 2, 2] S8x64x224x224
  bcast_S8x64x224x224_S8x64x1x224x224_0_1_3_4 : S8x64x224x224.BroadcastsInDim S8x64x1x224x224 (![0, 1, 3, 4] : Fin 4 → Fin S8x64x1x224x224.rank)
  concatenates_S8x64x1x224x224_S8x64x1x224x224_S8x64x1x224x224_S8x64x1x224x224_S8x64x1x224x224_S8x64x1x224x224_S8x64x1x224x224_S8x64x1x224x224_S8x64x1x224x224_S8x64x9x224x224_d2 : Shape.Concatenates [S8x64x1x224x224, S8x64x1x224x224, S8x64x1x224x224, S8x64x1x224x224, S8x64x1x224x224, S8x64x1x224x224, S8x64x1x224x224, S8x64x1x224x224, S8x64x1x224x224] S8x64x9x224x224 2
  bcast_S1x64x9x1x1_S8x64x9x224x224_0_1_2_3_4 : S1x64x9x1x1.BroadcastsInDim S8x64x9x224x224 (![0, 1, 2, 3, 4] : Fin 5 → Fin S8x64x9x224x224.rank)
  reducesTo_S8x64x9x224x224_S8x64x224x224_d2 : S8x64x9x224x224.ReducesTo [2] S8x64x224x224

variable [Facts₀]

class Facts : Prop extends Facts₀ where

variable [Facts]
-- ==== Proof.Dilation.lean ====
/-
  Morphological dilation of a zero-padded plane by a 3 × 3 additive structuring element, as one
  function of the two argument arrays on the extended reals.

  For an image array x : [8, 64, 224, 224] and a structuring element k : [1, 64, 9, 1, 1],

      out[b, c, h, w] = max over the nine taps i of ( pad(x)[b, c, h + i / 3, w + i % 3] + k[0, c, i, 0, 0] ),

  where pad(x)[b, c, ·, ·] is the 226 × 226 plane that holds x[b, c, ·, ·] in rows and columns 1 … 224 and
  zero on its one-entry border. Each output plane depends on ONE input plane (a function of a row and a column)
  and on the channel's nine weights, so the padding, the taps and their join are stated over a plane and a weight
  vector; the array form instantiates them at (b, c).

  The maximum of the nine values is the lattice join on the extended reals (bottom −∞), so it does not matter
  from where, or in which order, the nine values are joined: `joinTaps_nested` spells the join as the left-nested
  maximum starting at tap 0, with the taps' row and column offsets written out.
-/
import Idealize.ShloMosaic.PureOps.Ideal
import Idealize.ShloMosaic.PureOps.Ideal.Laws
import Idealize.ShloMosaic.Lib.ValueIdx

noncomputable section

namespace Cert.Dilation

open Idealize.ShloMosaic Idealize.ShloMosaic.ValueIdx

/-- The image array's shape. -/
abbrev SX : Shape := ⟨4, ![8, 64, 224, 224]⟩
/-- The structuring element's shape: one additive weight per channel and tap. -/
abbrev SK : Shape := ⟨5, ![1, 64, 9, 1, 1]⟩

/-- Entry (r, s) of the zero-padded 226 × 226 plane: the plane's entry (r − 1, s − 1) when both coordinates lie
    in 1 … 224, and zero on the border. -/
def paddedPlane (plane : Fin 224 → Fin 224 → EReal) (r s : Nat) : EReal :=
  if h : (1 ≤ r ∧ r ≤ 224) ∧ (1 ≤ s ∧ s ≤ 224) then plane ⟨r - 1, by omega⟩ ⟨s - 1, by omega⟩ else 0

/-- Inside, the padded plane is the plane. -/
theorem paddedPlane_inside (plane : Fin 224 → Fin 224 → EReal) (r s : Nat) (p q : Fin 224)
    (hr : r = p.val + 1) (hs : s = q.val + 1) : paddedPlane plane r s = plane p q := by
  subst hr hs
  unfold paddedPlane
  rw [dif_pos ⟨⟨by omega, by have := p.isLt; omega⟩, ⟨by omega, by have := q.isLt; omega⟩⟩]
  rfl

/-- On the border (some coordinate 0 or 225, or beyond) the padded plane is zero. -/
theorem paddedPlane_border (plane : Fin 224 → Fin 224 → EReal) (r s : Nat)
    (h : ¬((1 ≤ r ∧ r ≤ 224) ∧ (1 ≤ s ∧ s ≤ 224))) : paddedPlane plane r s = 0 := by
  unfold paddedPlane; rw [dif_neg h]

/-- Tap i at row h, column w: the padded plane's entry i / 3 rows down and i % 3 columns right, plus the tap's
    weight. -/
def tapAt (plane : Fin 224 → Fin 224 → EReal) (wt : Fin 9 → EReal) (h w : Fin 224) (i : Fin 9) : EReal :=
  paddedPlane plane (h.val + i.val / 3) (w.val + i.val % 3) + wt i

/-- The join of the nine taps at row h, column w. -/
def joinTaps (plane : Fin 224 → Fin 224 → EReal) (wt : Fin 9 → EReal) (h w : Fin 224) : EReal :=
  (Finset.univ : Finset (Fin 9)).fold max ⊥ (tapAt plane wt h w)

/-- THE DILATION: output plane (b, c) is the join of the nine taps of input plane (b, c) under channel c's weights. -/
def dilate (x : SX.Idx → EReal) (k : SK.Idx → EReal) : SX.Idx → EReal := fun j =>
  joinTaps (fun p q => x (ix4 (j 0) (j 1) p q)) (fun i => k (ix5 0 (j 1) i 0 0)) (j 2) (j 3)

/-- A join of nine extended reals from −∞ is their left-nested maximum: −∞ is the join's neutral element and the
    join is commutative and associative. -/
theorem fold_max_nine (g : Fin 9 → EReal) :
    (Finset.univ : Finset (Fin 9)).fold max ⊥ g
      = max (max (max (max (max (max (max (max (g 0) (g 1)) (g 2)) (g 3)) (g 4)) (g 5)) (g 6)) (g 7)) (g 8) := by
  simp only [Fin.univ_succ, Finset.fold_cons, Finset.fold_map, Finset.univ_unique, Finset.fold_singleton]
  show max (g 0) (max (g 1) (max (g 2) (max (g 3) (max (g 4) (max (g 5) (max (g 6) (max (g 7) (max (g 8) ⊥)))))))) = _
  rw [max_bot_right]
  ac_rfl

/-- The join of the nine taps with each tap's offsets written out: rows h, h + 1, h + 2 by columns w, w + 1, w + 2,
    in row-major order, joined from the left. -/
theorem joinTaps_nested (plane : Fin 224 → Fin 224 → EReal) (wt : Fin 9 → EReal) (h w : Fin 224) :
    joinTaps plane wt h w
      = max (max (max (max (max (max (max (max
          (paddedPlane plane (h.val + 0) (w.val + 0) + wt 0)
          (paddedPlane plane (h.val + 0) (w.val + 1) + wt 1))
          (paddedPlane plane (h.val + 0) (w.val + 2) + wt 2))
          (paddedPlane plane (h.val + 1) (w.val + 0) + wt 3))
          (paddedPlane plane (h.val + 1) (w.val + 1) + wt 4))
          (paddedPlane plane (h.val + 1) (w.val + 2) + wt 5))
          (paddedPlane plane (h.val + 2) (w.val + 0) + wt 6))
          (paddedPlane plane (h.val + 2) (w.val + 1) + wt 7))
          (paddedPlane plane (h.val + 2) (w.val + 2) + wt 8) := by
  unfold joinTaps
  rw [fold_max_nine]
  rfl

end Cert.Dilation

end
-- ==== Proof.RefDilation.lean ====
/-
  The reference program's result is the dilation.

  The reference pads each image plane with one ring of the converted integer 0, cuts the nine 224 × 224 windows of
  the padded array at row offsets 0, 1, 2 by column offsets 0, 1, 2, stacks them along a new axis in row-major
  order of the offsets, adds the structuring element broadcast along batch, rows and columns, and reduces the
  stacked axis with a maximum from −∞. Read at an output position this is the join of the nine taps of the
  position's plane: the pad read at an index is the zero-padded plane, slice i of the stack is the padded plane
  moved by tap i's offsets, and a commutative, associative reduction along one axis is the fold over that axis's
  coordinates.
-/
import proofs.«101210_j78168404787232_2_alg».proof.Proof.Gen.ReferenceIdeal.Read
import proofs.«101210_j78168404787232_2_alg».proof.Proof.Dilation
import Idealize.ShloMosaic.Lib.KernelVsHost
import Idealize.ShloMosaic.Lib.Pipeline.Value
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Cert.Dilation
open Idealize.ShloMosaic Idealize.ShloMosaic.ValueIdx

/-- The padding value is zero: the integer 0, converted exactly. -/
theorem padValue : val_main_call0_v0 (F := Ideal) (Shape.Idx.first h_S_) = 0 := by
  rw [val_main_call0_v0_apply, val_main_c_apply]
  show (((0#32 : BitVec 32).toInt : ℝ) : EReal) = 0
  simp

/-- The reduction's initial word is −∞, the join's neutral element. -/
theorem negInf : Ideal.ofBits .f32 0xFF800000#32 = (⊥ : EReal) := by simp [Ideal.ofBits, Ideal.ieee]

/-- THE PAD READ AT AN INDEX: entry (b, c, r, s) of the padded array is entry (r, s) of plane (b, c) padded with
    zeros. -/
theorem padded_apply (X : S8x64x224x224.Idx → EReal) (b : Fin 8) (c : Fin 64) (r s : Fin 226) :
    val_main_v0 (F := Ideal) X (ix4 b c r s) = paddedPlane (fun p q => X (ix4 b c p q)) r.val s.val := by
  unfold val_main_v0
  by_cases h : (1 ≤ r.val ∧ r.val ≤ 224) ∧ (1 ≤ s.val ∧ s.val ≤ 224)
  · rw [paddedPlane_inside _ _ _ ⟨r.val - 1, by omega⟩ ⟨s.val - 1, by omega⟩ (by show r.val = r.val - 1 + 1; omega)
      (by show s.val = s.val - 1 + 1; omega)]
    exact pad_apply_of_inside _ _ _ X _ pads_S8x64x224x224_S8x64x226x226_000_000_110_110 h_S_ (ix4 b c r s)
      (ix4 b c ⟨r.val - 1, by omega⟩ ⟨s.val - 1, by omega⟩) (fun a => match a with
        | ⟨0, _⟩ => by show b.val = 0 + b.val * (0 + 1); omega
        | ⟨1, _⟩ => by show c.val = 0 + c.val * (0 + 1); omega
        | ⟨2, _⟩ => by show r.val = 1 + (r.val - 1) * (0 + 1); omega
        | ⟨3, _⟩ => by show s.val = 1 + (s.val - 1) * (0 + 1); omega)
  · rw [paddedPlane_border _ _ _ h]
    by_cases hr : 1 ≤ r.val ∧ r.val ≤ 224
    · have hs : ¬(1 ≤ s.val ∧ s.val ≤ 224) := fun hs => h ⟨hr, hs⟩
      rw [pad_apply_of_not_inside _ _ _ X _ pads_S8x64x224x224_S8x64x226x226_000_000_110_110 h_S_ (ix4 b c r s) (3 : Fin 4)
        (fun ⟨h1, _, h3⟩ => hs ⟨h1, by
          have h3' : (s.val - 1) / (0 + 1) < 224 := h3
          rw [Nat.zero_add, Nat.div_one] at h3'; omega⟩)]
      exact padValue
    · rw [pad_apply_of_not_inside _ _ _ X _ pads_S8x64x224x224_S8x64x226x226_000_000_110_110 h_S_ (ix4 b c r s) (2 : Fin 4)
        (fun ⟨h1, _, h3⟩ => hr ⟨h1, by
          have h3' : (r.val - 1) / (0 + 1) < 224 := h3
          rw [Nat.zero_add, Nat.div_one] at h3'; omega⟩)]
      exact padValue

/-- Nine arrays of one unit extent along axis 2, stacked: entry (b, c, i, h, w) of the stack is entry (b, c, 0, h, w)
    of array i. -/
theorem stack_apply (u : Fin 9 → (S8x64x1x224x224.Idx → EReal)) (b : Fin 8) (c : Fin 64) (i : Fin 9) (hh w : Fin 224) :
    concatenate S8x64x9x224x224 2 [⟨S8x64x1x224x224, u 0⟩, ⟨S8x64x1x224x224, u 1⟩, ⟨S8x64x1x224x224, u 2⟩, ⟨S8x64x1x224x224, u 3⟩, ⟨S8x64x1x224x224, u 4⟩, ⟨S8x64x1x224x224, u 5⟩, ⟨S8x64x1x224x224, u 6⟩, ⟨S8x64x1x224x224, u 7⟩, ⟨S8x64x1x224x224, u 8⟩] concatenates_S8x64x1x224x224_S8x64x1x224x224_S8x64x1x224x224_S8x64x1x224x224_S8x64x1x224x224_S8x64x1x224x224_S8x64x1x224x224_S8x64x1x224x224_S8x64x1x224x224_S8x64x9x224x224_d2 (ix5 b c i hh w) = u i (ix5 b c 0 hh w) :=
  concatenate_ofFn_unit_apply (t := S8x64x9x224x224) (s₁ := S8x64x1x224x224) 2 u concatenates_S8x64x1x224x224_S8x64x1x224x224_S8x64x1x224x224_S8x64x1x224x224_S8x64x1x224x224_S8x64x1x224x224_S8x64x1x224x224_S8x64x1x224x224_S8x64x1x224x224_S8x64x9x224x224_d2 rfl rfl (ix5 b c i hh w) i rfl
    (ix5 b c 0 hh w) (fun bb hb => match bb with
      | ⟨0, _⟩ => rfl
      | ⟨1, _⟩ => rfl
      | ⟨2, _⟩ => absurd rfl hb
      | ⟨3, _⟩ => rfl
      | ⟨4, _⟩ => rfl)

/-- The nine windows of the padded array, each with the stacking axis added, in stacking order. -/
def slices (X : S8x64x224x224.Idx → EReal) : Fin 9 → (S8x64x1x224x224.Idx → EReal) := fun i => match i with
  | ⟨0, _⟩ => val_main_v10 (F := Ideal) X
  | ⟨1, _⟩ => val_main_v11 (F := Ideal) X
  | ⟨2, _⟩ => val_main_v12 (F := Ideal) X
  | ⟨3, _⟩ => val_main_v13 (F := Ideal) X
  | ⟨4, _⟩ => val_main_v14 (F := Ideal) X
  | ⟨5, _⟩ => val_main_v15 (F := Ideal) X
  | ⟨6, _⟩ => val_main_v16 (F := Ideal) X
  | ⟨7, _⟩ => val_main_v17 (F := Ideal) X
  | ⟨8, _⟩ => val_main_v18 (F := Ideal) X

/-! Window i of the padded array is the padded array moved i / 3 rows down and i % 3 columns right: one lemma per
    window, its offsets written out. -/

theorem window0_apply (X : S8x64x224x224.Idx → EReal) (b : Fin 8) (c : Fin 64) (hh w : Fin 224) :
    slices X 0 (ix5 b c 0 hh w)
      = val_main_v0 (F := Ideal) X (ix4 b c ⟨hh.val + 0, by have := hh.isLt; omega⟩ ⟨w.val + 0, by have := w.isLt; omega⟩) := by
  show val_main_v10 (F := Ideal) X (ix5 b c 0 hh w) = _
  rw [val_main_v10_apply, val_main_v1_apply]
  exact congrArg (val_main_v0 (F := Ideal) X) (funext fun a => Fin.ext (match a with
    | ⟨0, _⟩ => rfl
    | ⟨1, _⟩ => rfl
    | ⟨2, _⟩ => by show hh.val = hh.val + 0; omega
    | ⟨3, _⟩ => by show w.val = w.val + 0; omega))

theorem window1_apply (X : S8x64x224x224.Idx → EReal) (b : Fin 8) (c : Fin 64) (hh w : Fin 224) :
    slices X 1 (ix5 b c 0 hh w)
      = val_main_v0 (F := Ideal) X (ix4 b c ⟨hh.val + 0, by have := hh.isLt; omega⟩ ⟨w.val + 1, by have := w.isLt; omega⟩) := by
  show val_main_v11 (F := Ideal) X (ix5 b c 0 hh w) = _
  rw [val_main_v11_apply, val_main_v2_apply]
  exact congrArg (val_main_v0 (F := Ideal) X) (funext fun a => Fin.ext (match a with
    | ⟨0, _⟩ => rfl
    | ⟨1, _⟩ => rfl
    | ⟨2, _⟩ => by show hh.val = hh.val + 0; omega
    | ⟨3, _⟩ => by show 1 + w.val = w.val + 1; omega))

theorem window2_apply (X : S8x64x224x224.Idx → EReal) (b : Fin 8) (c : Fin 64) (hh w : Fin 224) :
    slices X 2 (ix5 b c 0 hh w)
      = val_main_v0 (F := Ideal) X (ix4 b c ⟨hh.val + 0, by have := hh.isLt; omega⟩ ⟨w.val + 2, by have := w.isLt; omega⟩) := by
  show val_main_v12 (F := Ideal) X (ix5 b c 0 hh w) = _
  rw [val_main_v12_apply, val_main_v3_apply]
  exact congrArg (val_main_v0 (F := Ideal) X) (funext fun a => Fin.ext (match a with
    | ⟨0, _⟩ => rfl
    | ⟨1, _⟩ => rfl
    | ⟨2, _⟩ => by show hh.val = hh.val + 0; omega
    | ⟨3, _⟩ => by show 2 + w.val = w.val + 2; omega))

theorem window3_apply (X : S8x64x224x224.Idx → EReal) (b : Fin 8) (c : Fin 64) (hh w : Fin 224) :
    slices X 3 (ix5 b c 0 hh w)
      = val_main_v0 (F := Ideal) X (ix4 b c ⟨hh.val + 1, by have := hh.isLt; omega⟩ ⟨w.val + 0, by have := w.isLt; omega⟩) := by
  show val_main_v13 (F := Ideal) X (ix5 b c 0 hh w) = _
  rw [val_main_v13_apply, val_main_v4_apply]
  exact congrArg (val_main_v0 (F := Ideal) X) (funext fun a => Fin.ext (match a with
    | ⟨0, _⟩ => rfl
    | ⟨1, _⟩ => rfl
    | ⟨2, _⟩ => by show 1 + hh.val = hh.val + 1; omega
    | ⟨3, _⟩ => by show w.val = w.val + 0; omega))

theorem window4_apply (X : S8x64x224x224.Idx → EReal) (b : Fin 8) (c : Fin 64) (hh w : Fin 224) :
    slices X 4 (ix5 b c 0 hh w)
      = val_main_v0 (F := Ideal) X (ix4 b c ⟨hh.val + 1, by have := hh.isLt; omega⟩ ⟨w.val + 1, by have := w.isLt; omega⟩) := by
  show val_main_v14 (F := Ideal) X (ix5 b c 0 hh w) = _
  rw [val_main_v14_apply, val_main_v5_apply]
  exact congrArg (val_main_v0 (F := Ideal) X) (funext fun a => Fin.ext (match a with
    | ⟨0, _⟩ => rfl
    | ⟨1, _⟩ => rfl
    | ⟨2, _⟩ => by show 1 + hh.val = hh.val + 1; omega
    | ⟨3, _⟩ => by show 1 + w.val = w.val + 1; omega))

theorem window5_apply (X : S8x64x224x224.Idx → EReal) (b : Fin 8) (c : Fin 64) (hh w : Fin 224) :
    slices X 5 (ix5 b c 0 hh w)
      = val_main_v0 (F := Ideal) X (ix4 b c ⟨hh.val + 1, by have := hh.isLt; omega⟩ ⟨w.val + 2, by have := w.isLt; omega⟩) := by
  show val_main_v15 (F := Ideal) X (ix5 b c 0 hh w) = _
  rw [val_main_v15_apply, val_main_v6_apply]
  exact congrArg (val_main_v0 (F := Ideal) X) (funext fun a => Fin.ext (match a with
    | ⟨0, _⟩ => rfl
    | ⟨1, _⟩ => rfl
    | ⟨2, _⟩ => by show 1 + hh.val = hh.val + 1; omega
    | ⟨3, _⟩ => by show 2 + w.val = w.val + 2; omega))

theorem window6_apply (X : S8x64x224x224.Idx → EReal) (b : Fin 8) (c : Fin 64) (hh w : Fin 224) :
    slices X 6 (ix5 b c 0 hh w)
      = val_main_v0 (F := Ideal) X (ix4 b c ⟨hh.val + 2, by have := hh.isLt; omega⟩ ⟨w.val + 0, by have := w.isLt; omega⟩) := by
  show val_main_v16 (F := Ideal) X (ix5 b c 0 hh w) = _
  rw [val_main_v16_apply, val_main_v7_apply]
  exact congrArg (val_main_v0 (F := Ideal) X) (funext fun a => Fin.ext (match a with
    | ⟨0, _⟩ => rfl
    | ⟨1, _⟩ => rfl
    | ⟨2, _⟩ => by show 2 + hh.val = hh.val + 2; omega
    | ⟨3, _⟩ => by show w.val = w.val + 0; omega))

theorem window7_apply (X : S8x64x224x224.Idx → EReal) (b : Fin 8) (c : Fin 64) (hh w : Fin 224) :
    slices X 7 (ix5 b c 0 hh w)
      = val_main_v0 (F := Ideal) X (ix4 b c ⟨hh.val + 2, by have := hh.isLt; omega⟩ ⟨w.val + 1, by have := w.isLt; omega⟩) := by
  show val_main_v17 (F := Ideal) X (ix5 b c 0 hh w) = _
  rw [val_main_v17_apply, val_main_v8_apply]
  exact congrArg (val_main_v0 (F := Ideal) X) (funext fun a => Fin.ext (match a with
    | ⟨0, _⟩ => rfl
    | ⟨1, _⟩ => rfl
    | ⟨2, _⟩ => by show 2 + hh.val = hh.val + 2; omega
    | ⟨3, _⟩ => by show 1 + w.val = w.val + 1; omega))

theorem window8_apply (X : S8x64x224x224.Idx → EReal) (b : Fin 8) (c : Fin 64) (hh w : Fin 224) :
    slices X 8 (ix5 b c 0 hh w)
      = val_main_v0 (F := Ideal) X (ix4 b c ⟨hh.val + 2, by have := hh.isLt; omega⟩ ⟨w.val + 2, by have := w.isLt; omega⟩) := by
  show val_main_v18 (F := Ideal) X (ix5 b c 0 hh w) = _
  rw [val_main_v18_apply, val_main_v9_apply]
  exact congrArg (val_main_v0 (F := Ideal) X) (funext fun a => Fin.ext (match a with
    | ⟨0, _⟩ => rfl
    | ⟨1, _⟩ => rfl
    | ⟨2, _⟩ => by show 2 + hh.val = hh.val + 2; omega
    | ⟨3, _⟩ => by show 2 + w.val = w.val + 2; omega))

/-- The reduced index (b, c, h, w) with coordinate k put back on the stacked axis is (b, c, k, h, w). -/
theorem lift_ix (hred : S8x64x9x224x224.Reduces [2] S8x64x224x224) (b : Fin 8) (c : Fin 64) (hh w : Fin 224)
    (k : Fin (S8x64x9x224x224.size 2)) : hred.lift (ix4 b c hh w) k = ix5 b c (⟨k.val, k.isLt⟩ : Fin 9) hh w := by
  funext a; apply Fin.ext
  fin_cases a <;> rfl

/-- One tap of the reference: where window i is the padded array moved a rows and d columns, entry (b, c, i, h, w) of
    the stack plus the broadcast structuring element is the padded plane (b, c) at (h + a, w + d) plus channel c's
    weight for tap i. -/
theorem tap_of_window (X : S8x64x224x224.Idx → EReal) (K : S1x64x9x1x1.Idx → EReal) (b : Fin 8) (c : Fin 64)
    (hh w : Fin 224) (i : Fin 9) (a d : Nat) (ha : a ≤ 2) (hd : d ≤ 2)
    (hwin : slices X i (ix5 b c 0 hh w)
      = val_main_v0 (F := Ideal) X (ix4 b c ⟨hh.val + a, by have := hh.isLt; omega⟩ ⟨w.val + d, by have := w.isLt; omega⟩)) :
    val_main_v21 (F := Ideal) X K (ix5 b c i hh w)
      = paddedPlane (fun p q => X (ix4 b c p q)) (hh.val + a) (w.val + d) + K (ix5 0 c i 0 0) := by
  rw [val_main_v21_apply, val_main_v20_apply]
  have e : val_main_v19 (F := Ideal) X (ix5 b c i hh w) = slices X i (ix5 b c 0 hh w) := stack_apply (slices X) b c i hh w
  rw [e, hwin, padded_apply]
  have ek : idx_main_v20 (ix5 b c i hh w) = ix5 0 c i 0 0 := funext fun a => match a with
    | ⟨0, _⟩ => rfl
    | ⟨1, _⟩ => rfl
    | ⟨2, _⟩ => rfl
    | ⟨3, _⟩ => rfl
    | ⟨4, _⟩ => rfl
  rw [ek]
  rfl

/-- THE REFERENCE'S RESULT IS THE DILATION of its two arguments. -/
theorem result_eq (X : S8x64x224x224.Idx → EReal) (K : S1x64x9x1x1.Idx → EReal) :
    val_main_v22 (F := Ideal) X K = dilate X K := by
  funext j
  obtain ⟨b, c, hh, w, rfl⟩ : ∃ (b : Fin 8) (c : Fin 64) (hh w : Fin 224), j = ix4 b c hh w := ⟨j 0, j 1, j 2, j 3, eq_ix4 j⟩
  have hred : S8x64x9x224x224.Reduces [2] S8x64x224x224 := by decide
  unfold val_main_v22
  rw [Host.reduce_eq_fold_single FloatOps.maximumf _ _ reducesTo_S8x64x9x224x224_S8x64x224x224_d2 hred h_S_]
  have hf : (val_main_v21 (F := Ideal) X K ∘ hred.lift (ix4 b c hh w))
      = fun k : Fin (S8x64x9x224x224.size 2) => val_main_v21 (F := Ideal) X K (ix5 b c (⟨k.val, k.isLt⟩ : Fin 9) hh w) :=
    funext fun k => congrArg (val_main_v21 (F := Ideal) X K) (lift_ix hred b c hh w k)
  rw [hf]
  show Finset.fold max (Ideal.ofBits .f32 0xFF800000#32)
      (fun k : Fin 9 => val_main_v21 (F := Ideal) X K (ix5 b c k hh w)) (Finset.univ : Finset (Fin 9))
    = joinTaps (fun p q => X (ix4 b c p q)) (fun i => K (ix5 0 c i 0 0)) hh w
  rw [negInf, fold_max_nine, joinTaps_nested]
  have t0 := (tap_of_window X K b c hh w 0 0 0 (by omega) (by omega) (window0_apply X b c hh w))
  have t1 := (tap_of_window X K b c hh w 1 0 1 (by omega) (by omega) (window1_apply X b c hh w))
  have t2 := (tap_of_window X K b c hh w 2 0 2 (by omega) (by omega) (window2_apply X b c hh w))
  have t3 := (tap_of_window X K b c hh w 3 1 0 (by omega) (by omega) (window3_apply X b c hh w))
  have t4 := (tap_of_window X K b c hh w 4 1 1 (by omega) (by omega) (window4_apply X b c hh w))
  have t5 := (tap_of_window X K b c hh w 5 1 2 (by omega) (by omega) (window5_apply X b c hh w))
  have t6 := (tap_of_window X K b c hh w 6 2 0 (by omega) (by omega) (window6_apply X b c hh w))
  have t7 := (tap_of_window X K b c hh w 7 2 1 (by omega) (by omega) (window7_apply X b c hh w))
  have t8 := (tap_of_window X K b c hh w 8 2 2 (by omega) (by omega) (window8_apply X b c hh w))
  rw [t0, t1, t2, t3, t4, t5, t6, t7, t8]

end Cert.ReferenceIdeal.RefValue

end
-- ==== Proof.KernelBlock.lean ====
/-
  What the kernel's body leaves in its output block, at the extended reals.

  At every grid point the body first rebuilds its scratch plane from nothing: it stores a zero row at rows 0 and 225,
  a zero column at columns 0 and 225, and the loaded image block at rows and columns 1 … 224. Whatever the scratch
  held before, it then holds the block's sixteen planes, each padded with one ring of zeros. The body then reads
  the nine 224 × 224 windows of the scratch at row offsets 0, 1, 2 by column offsets 0, 1, 2, adds to window i the
  channel's weight for tap i (a 1 × 16 × 1 × 1 × 1 slice of the weight block, broadcast over rows and columns) and
  folds the nine sums with a maximum from the left, starting at tap 0. So entry (0, c, h, w) of the stored block is
  the join of the nine taps of the loaded block's plane c under the loaded weights of channel c.
-/
import proofs.«101210_j78168404787232_2_alg».proof.Proof.Gen.KernelIdeal.Frame
import proofs.«101210_j78168404787232_2_alg».proof.Proof.Dilation
import Idealize.ShloMosaic.Lib.Pipeline.Value
import Idealize.ShloMosaic.Lib.ValueIdx
import Idealize.ShloMosaic.PureOps.Ideal.Laws

set_option maxRecDepth 16384

noncomputable section

namespace Cert.KernelIdeal.BlockValue

open Cert.KernelIdeal Cert.KernelIdeal.Gen Cert.Dilation
open Idealize.ShloMosaic Idealize.ShloMosaic.TcCoe Idealize.ShloMosaic.ValueIdx Idealize.SL.Sem
open Idealize.ShloMosaic.Tactic

theorem hz4 : (![0, 0, 0, 0] : Fin 4 → Nat) = fun _ => 0 := funext fun a => by fin_cases a <;> rfl

/-! ## The scratch plane after the five stores -/

/-- The scratch's five stores, last first: the image block at rows and columns 1 … 224, the zero columns 225 and 0,
    the zero rows 225 and 0. -/
abbrev scratchPieces (X : Vec Ideal S1x16x224x224 .f32) : List (View.Piece (Elt Ideal) S1x16x226x226 .f32) :=
  [⟨Rect.unit (s := S1x16x226x226) ![0, 0, 1, 1] S1x16x224x224.size inb_S1x16x226x226_S1x16x224x224_0_0_1_1, k0_pay8 (F := Ideal) X⟩,
   ⟨Rect.unit (s := S1x16x226x226) ![0, 0, 0, 225] S1x16x226x1.size inb_S1x16x226x226_S1x16x226x1_0_0_0_225, k0_pay7 (F := Ideal)⟩,
   ⟨Rect.unit (s := S1x16x226x226) ![0, 0, 0, 0] S1x16x226x1.size inb_S1x16x226x226_S1x16x226x1_0_0_0_0, k0_pay6 (F := Ideal)⟩,
   ⟨Rect.unit (s := S1x16x226x226) ![0, 0, 225, 0] S1x16x1x226.size inb_S1x16x226x226_S1x16x1x226_0_0_225_0, k0_pay5 (F := Ideal)⟩,
   ⟨Rect.unit (s := S1x16x226x226) ![0, 0, 0, 0] S1x16x1x226.size inb_S1x16x226x226_S1x16x1x226_0_0_0_0, k0_pay4 (F := Ideal)⟩]

/-- What the scratch holds at an index: plane (y 1) of the block, zero-padded, at (y 2, y 3). -/
def scratchAt (X : Vec Ideal S1x16x224x224 .f32) (y : S1x16x226x226.Idx) : EReal :=
  paddedPlane (fun p q => X (ix4 0 (y 1) p q)) (y 2).val (y 3).val

/-- The zero rows and columns hold zero. -/
theorem zeroRow_apply (x : S1x16x1x226.Idx) : (k0_pay2 (F := Ideal)) x = 0 := Ideal.ofBits_zero_f32
theorem zeroCol_apply (x : S1x16x226x1.Idx) : (k0_pay3 (F := Ideal)) x = 0 := Ideal.ofBits_zero_f32

/-- THE SCRATCH AFTER THE FIVE STORES is the zero-padded block, at every index: each store's payload is the padded
    block on its own rectangle, and the five rectangles cover the plane. -/
theorem scratch_canon (X : Vec Ideal S1x16x224x224 .f32) (y : S1x16x226x226.Idx) :
    View.canon (scratchPieces X) y = scratchAt X y := by
  refine View.canon_apply_of_pieces (scratchAt X) (scratchPieces X) ?_ y ?_
  · intro p hp
    simp only [scratchPieces, List.mem_cons, List.not_mem_nil, or_false] at hp
    rcases hp with rfl | rfl | rfl | rfl | rfl
    · -- the image block: rows and columns 1 … 224
      intro x
      show k0_pay8 X x = scratchAt X _
      unfold k0_pay8 scratchAt
      rw [shapeCast_self]
      rw [paddedPlane_inside _ _ _ (x 2) (x 3) (by show 1 + 1 * (x 2).val = (x 2).val + 1; omega)
        (by show 1 + 1 * (x 3).val = (x 3).val + 1; omega)]
      exact congrArg X (funext fun a => Fin.ext (match a with
        | ⟨0, _⟩ => by have h0 : (x 0).val < 1 := (x 0).isLt; show (x 0).val = 0; omega
        | ⟨1, _⟩ => by show (x 1).val = 0 + 1 * (x 1).val; omega
        | ⟨2, _⟩ => rfl
        | ⟨3, _⟩ => rfl))
    · -- column 225
      intro x
      show k0_pay7 (F := Ideal) x = scratchAt X _
      unfold k0_pay7 scratchAt
      rw [shapeCast_self, zeroCol_apply]
      exact (paddedPlane_border _ _ _ (fun h => by
        have h3 : 225 + 1 * (x 3).val ≤ 224 := h.2.2
        omega)).symm
    · -- column 0
      intro x
      show k0_pay6 (F := Ideal) x = scratchAt X _
      unfold k0_pay6 scratchAt
      rw [shapeCast_self, zeroCol_apply]
      exact (paddedPlane_border _ _ _ (fun h => by
        have h3 : 1 ≤ 0 + 1 * (x 3).val := h.2.1
        have := (x 3).isLt
        have : (x 3).val < 1 := (x 3).isLt
        omega)).symm
    · -- row 225
      intro x
      show k0_pay5 (F := Ideal) x = scratchAt X _
      unfold k0_pay5 scratchAt
      rw [shapeCast_self, zeroRow_apply]
      exact (paddedPlane_border _ _ _ (fun h => by
        have h3 : 225 + 1 * (x 2).val ≤ 224 := h.1.2
        omega)).symm
    · -- row 0
      intro x
      show k0_pay4 (F := Ideal) x = scratchAt X _
      unfold k0_pay4 scratchAt
      rw [shapeCast_self, zeroRow_apply]
      exact (paddedPlane_border _ _ _ (fun h => by
        have h3 : 1 ≤ 0 + 1 * (x 2).val := h.1.1
        have : (x 2).val < 1 := (x 2).isLt
        omega)).symm
  · -- the five rectangles cover the plane
    have h0 : (y 0).val < 1 := (y 0).isLt
    have h1 : (y 1).val < 16 := (y 1).isLt
    have h2 : (y 2).val < 226 := (y 2).isLt
    have h3 : (y 3).val < 226 := (y 3).isLt
    by_cases c225 : (y 3).val = 225
    ·
      refine ⟨⟨Rect.unit (s := S1x16x226x226) ![0, 0, 0, 225] S1x16x226x1.size inb_S1x16x226x226_S1x16x226x1_0_0_0_225, k0_pay7 (F := Ideal)⟩, by simp only [scratchPieces, List.mem_cons, true_or, or_true], ?_⟩
      show y ∈ (Rect.unit (s := S1x16x226x226) ![0, 0, 0, 225] S1x16x226x1.size inb_S1x16x226x226_S1x16x226x1_0_0_0_225).set
      exact Rect.mem_set_unit.mpr fun a => match a with
        | ⟨0, _⟩ => by show 0 ≤ (y 0).val ∧ (y 0).val < 0 + 1; omega
        | ⟨1, _⟩ => by show 0 ≤ (y 1).val ∧ (y 1).val < 0 + 16; omega
        | ⟨2, _⟩ => by show 0 ≤ (y 2).val ∧ (y 2).val < 0 + 226; omega
        | ⟨3, _⟩ => by show 225 ≤ (y 3).val ∧ (y 3).val < 225 + 1; omega
    by_cases c0 : (y 3).val = 0
    ·
      refine ⟨⟨Rect.unit (s := S1x16x226x226) ![0, 0, 0, 0] S1x16x226x1.size inb_S1x16x226x226_S1x16x226x1_0_0_0_0, k0_pay6 (F := Ideal)⟩, by simp only [scratchPieces, List.mem_cons, true_or, or_true], ?_⟩
      show y ∈ (Rect.unit (s := S1x16x226x226) ![0, 0, 0, 0] S1x16x226x1.size inb_S1x16x226x226_S1x16x226x1_0_0_0_0).set
      exact Rect.mem_set_unit.mpr fun a => match a with
        | ⟨0, _⟩ => by show 0 ≤ (y 0).val ∧ (y 0).val < 0 + 1; omega
        | ⟨1, _⟩ => by show 0 ≤ (y 1).val ∧ (y 1).val < 0 + 16; omega
        | ⟨2, _⟩ => by show 0 ≤ (y 2).val ∧ (y 2).val < 0 + 226; omega
        | ⟨3, _⟩ => by show 0 ≤ (y 3).val ∧ (y 3).val < 0 + 1; omega
    by_cases r225 : (y 2).val = 225
    ·
      refine ⟨⟨Rect.unit (s := S1x16x226x226) ![0, 0, 225, 0] S1x16x1x226.size inb_S1x16x226x226_S1x16x1x226_0_0_225_0, k0_pay5 (F := Ideal)⟩, by simp only [scratchPieces, List.mem_cons, true_or, or_true], ?_⟩
      show y ∈ (Rect.unit (s := S1x16x226x226) ![0, 0, 225, 0] S1x16x1x226.size inb_S1x16x226x226_S1x16x1x226_0_0_225_0).set
      exact Rect.mem_set_unit.mpr fun a => match a with
        | ⟨0, _⟩ => by show 0 ≤ (y 0).val ∧ (y 0).val < 0 + 1; omega
        | ⟨1, _⟩ => by show 0 ≤ (y 1).val ∧ (y 1).val < 0 + 16; omega
        | ⟨2, _⟩ => by show 225 ≤ (y 2).val ∧ (y 2).val < 225 + 1; omega
        | ⟨3, _⟩ => by show 0 ≤ (y 3).val ∧ (y 3).val < 0 + 226; omega
    by_cases r0 : (y 2).val = 0
    ·
      refine ⟨⟨Rect.unit (s := S1x16x226x226) ![0, 0, 0, 0] S1x16x1x226.size inb_S1x16x226x226_S1x16x1x226_0_0_0_0, k0_pay4 (F := Ideal)⟩, by simp only [scratchPieces, List.mem_cons, true_or, or_true], ?_⟩
      show y ∈ (Rect.unit (s := S1x16x226x226) ![0, 0, 0, 0] S1x16x1x226.size inb_S1x16x226x226_S1x16x1x226_0_0_0_0).set
      exact Rect.mem_set_unit.mpr fun a => match a with
        | ⟨0, _⟩ => by show 0 ≤ (y 0).val ∧ (y 0).val < 0 + 1; omega
        | ⟨1, _⟩ => by show 0 ≤ (y 1).val ∧ (y 1).val < 0 + 16; omega
        | ⟨2, _⟩ => by show 0 ≤ (y 2).val ∧ (y 2).val < 0 + 1; omega
        | ⟨3, _⟩ => by show 0 ≤ (y 3).val ∧ (y 3).val < 0 + 226; omega
    ·
      refine ⟨⟨Rect.unit (s := S1x16x226x226) ![0, 0, 1, 1] S1x16x224x224.size inb_S1x16x226x226_S1x16x224x224_0_0_1_1, k0_pay8 (F := Ideal) X⟩, by simp only [scratchPieces, List.mem_cons, true_or, or_true], ?_⟩
      show y ∈ (Rect.unit (s := S1x16x226x226) ![0, 0, 1, 1] S1x16x224x224.size inb_S1x16x226x226_S1x16x224x224_0_0_1_1).set
      exact Rect.mem_set_unit.mpr fun a => match a with
        | ⟨0, _⟩ => by show 0 ≤ (y 0).val ∧ (y 0).val < 0 + 1; omega
        | ⟨1, _⟩ => by show 0 ≤ (y 1).val ∧ (y 1).val < 0 + 16; omega
        | ⟨2, _⟩ => by show 1 ≤ (y 2).val ∧ (y 2).val < 1 + 224; omega
        | ⟨3, _⟩ => by show 1 ≤ (y 3).val ∧ (y 3).val < 1 + 224; omega

/-- A WINDOW OF THE SCRATCH at row offset a, column offset d, read at (0, c, h, w): plane c of the block, zero-padded,
    at (h + a, w + d). -/
theorem window_read (X : Vec Ideal S1x16x224x224 .f32) (a d : Nat)
    (inb : ∀ ax, (![0, 0, a, d] : Fin 4 → Nat) ax + S1x16x224x224.size ax ≤ S1x16x226x226.size ax)
    (cc : Fin 16) (hh w : Fin 224) :
    View.canon (scratchPieces X) ((Rect.unit (s := S1x16x226x226) ![0, 0, a, d] S1x16x224x224.size inb).toLoadRect.idx (ix4 0 cc hh w))
      = paddedPlane (fun p q => X (ix4 0 cc p q)) (hh.val + a) (w.val + d) := by
  rw [scratch_canon]
  unfold scratchAt
  have e1 : ((Rect.unit (s := S1x16x226x226) ![0, 0, a, d] S1x16x224x224.size inb).toLoadRect.idx (ix4 0 cc hh w)) 1 = cc :=
    Fin.ext (by show 0 + 1 * cc.val = cc.val; omega)
  rw [e1]
  have e2 : (((Rect.unit (s := S1x16x226x226) ![0, 0, a, d] S1x16x224x224.size inb).toLoadRect.idx (ix4 0 cc hh w)) 2).val = hh.val + a := by
    show a + 1 * hh.val = hh.val + a; omega
  have e3 : (((Rect.unit (s := S1x16x226x226) ![0, 0, a, d] S1x16x224x224.size inb).toLoadRect.idx (ix4 0 cc hh w)) 3).val = w.val + d := by
    show d + 1 * w.val = w.val + d; omega
  rw [e2, e3]

/-! ## The weights -/

/-- A tap's weights as the body uses them: the 1 × 16 × 1 × 1 × 1 slice, its tap axis dropped, broadcast over rows and
    columns. -/
abbrev tapWeight (k : Vec Ideal S1x16x1x1x1 .f32) : Vec Ideal S1x16x224x224 .f32 :=
  broadcastTo S1x16x224x224 (shapeCast S1x16x1x1 k shapeCasts_S1x16x1x1x1_S1x16x1x1) broadcasts_S1x16x1x1_S1x16x224x224

/-- At (0, c, h, w) it is the slice's entry for channel c. -/
theorem tapWeight_apply (k : Vec Ideal S1x16x1x1x1 .f32) (cc : Fin 16) (hh w : Fin 224) :
    tapWeight k (ix4 0 cc hh w) = k (ix5 0 cc 0 0 0) := by
  unfold tapWeight
  rw [broadcastTo_apply _ broadcasts_S1x16x1x1_S1x16x224x224 (ix4 0 cc hh w) (ix4 0 cc 0 0) (fun a => match a with
    | ⟨0, _⟩ => by show (0 : Nat) = if (1 : Nat) = 1 then 0 else _; rw [if_pos rfl]
    | ⟨1, _⟩ => by show cc.val = if (16 : Nat) = 1 then 0 else cc.val; rw [if_neg (by decide)]
    | ⟨2, _⟩ => by show (0 : Nat) = if (1 : Nat) = 1 then 0 else _; rw [if_pos rfl]
    | ⟨3, _⟩ => by show (0 : Nat) = if (1 : Nat) = 1 then 0 else _; rw [if_pos rfl])]
  exact shapeCast_apply _ shapeCasts_S1x16x1x1x1_S1x16x1x1 (ix4 0 cc 0 0) (ix5 0 cc 0 0 0) (by
    rw [Shape.rowMajor_val_five, Shape.rowMajor_val_four]
    show ((((0 * 16 + cc.val) * 1 + 0) * 1 + 0) * 1 + 0 : Nat) = ((0 * 16 + cc.val) * 1 + 0) * 1 + 0
    omega)

/-- Tap i's weights as the body uses them, read at (0, c, h, w): the loaded weight block's entry (0, c, i, 0, 0). -/
theorem tapWeight_slice_apply (x1 : Vec Ideal S1x16x9x1x1 .f32) (i : Nat) (hi : i < 9)
    (inb : ∀ ax, (![0, 0, i, 0, 0] : Fin 5 → Nat) ax + S1x16x1x1x1.size ax ≤ S1x16x9x1x1.size ax) (cc : Fin 16) (hh w : Fin 224) :
    tapWeight (View.ld x1 (Rect.unit (s := S1x16x9x1x1) ![0, 0, i, 0, 0] S1x16x1x1x1.size inb)) (ix4 0 cc hh w)
      = x1 (ix5 0 cc ⟨i, hi⟩ 0 0) := by
  rw [tapWeight_apply]
  exact congrArg x1 (funext fun a => Fin.ext (match a with
    | ⟨0, _⟩ => rfl
    | ⟨1, _⟩ => by show 0 + 1 * cc.val = cc.val; omega
    | ⟨2, _⟩ => by show i + 1 * 0 = i; omega
    | ⟨3, _⟩ => rfl
    | ⟨4, _⟩ => rfl))

/-! ## The payload: nine sums joined from the left -/

/-- The body's arithmetic on nine windows and nine weight slices, index by index: the left-nested maximum of the
    nine sums, starting at tap 0. -/
theorem payload_nested (v0 v1 v2 v3 v4 v5 v6 v7 v8 : Vec Ideal S1x16x224x224 .f32) (k0 k1 k2 k3 k4 k5 k6 k7 k8 : Vec Ideal S1x16x1x1x1 .f32)
    (j : S1x16x224x224.Idx) :
    k0_pay1 (k0_pay10 (k0_pay9 v0 k0 v1 k1 v2 k2 v3 k3) v4 k4 v5 k5 v6 k6 v7 k7) v8 k8 j
      = max (max (max (max (max (max (max (max (v0 j + tapWeight k0 j) (v1 j + tapWeight k1 j)) (v2 j + tapWeight k2 j)) (v3 j + tapWeight k3 j)) (v4 j + tapWeight k4 j)) (v5 j + tapWeight k5 j)) (v6 j + tapWeight k6 j)) (v7 j + tapWeight k7 j)) (v8 j + tapWeight k8 j) := rfl

/-! ## The block -/

/-- THE BLOCK THE BODY LEAVES, entry (0, c, h, w): the join of the nine taps of plane c of the loaded image block
    under channel c's loaded weights — whatever the staging memrefs and the scratch are, and whatever the scratch held. -/
theorem block_apply (c : Dev nD) (i : grid0.Coords) (arg2 : Memref sig .tc .vmem S1x16x224x224 .f32) (harg2 : arg2.IsWhole) (arg3 : Memref sig .tc .vmem S1x16x9x1x1 .f32) (harg3 : arg3.IsWhole) (arg4 : Memref sig .tc .vmem S1x16x224x224 .f32) (harg4 : arg4.IsWhole) (arg5 : Memref sig .tc .vmem S1x16x226x226 .f32) (harg5 : arg5.IsWhole)
    (x0 : Vec Ideal S1x16x224x224 .f32) (x1 : Vec Ideal S1x16x9x1x1 .f32) (cc : Fin 16) (hh w : Fin 224) :
    out0_A_2 (F := Ideal) c i arg2 harg2 arg3 harg3 arg4 harg4 arg5 harg5 x0 x1 (ix4 0 cc hh w)
      = joinTaps (fun p q => x0 (ix4 0 cc p q)) (fun t => x1 (ix5 0 cc t 0 0)) hh w := by
  unfold out0_A_2
  rw [View.read_writes_eq_canon _ _ _ (cover0_A_2 c i arg2 harg2 arg3 harg3 arg4 harg4 arg5 harg5 x0 x1)]
  unfold kernelRun0_A
  dsimp only
  sl_unfold_words
  rw [View.canon_unit_zero hz4]
  simp only [View.readCov_eq_canon', View.readAt_eq_ld, harg2.read_unread, harg3.read_unread,
    View.ld_unit_zero (S := S1x16x224x224) hz4]
  rw [payload_nested, joinTaps_nested]
  rw [window_read x0 0 0 inb_S1x16x226x226_S1x16x224x224_0_0_0_0 cc hh w,
    window_read x0 0 1 inb_S1x16x226x226_S1x16x224x224_0_0_0_1 cc hh w,
    window_read x0 0 2 inb_S1x16x226x226_S1x16x224x224_0_0_0_2 cc hh w,
    window_read x0 1 0 inb_S1x16x226x226_S1x16x224x224_0_0_1_0 cc hh w,
    window_read x0 1 1 inb_S1x16x226x226_S1x16x224x224_0_0_1_1 cc hh w,
    window_read x0 1 2 inb_S1x16x226x226_S1x16x224x224_0_0_1_2 cc hh w,
    window_read x0 2 0 inb_S1x16x226x226_S1x16x224x224_0_0_2_0 cc hh w,
    window_read x0 2 1 inb_S1x16x226x226_S1x16x224x224_0_0_2_1 cc hh w,
    window_read x0 2 2 inb_S1x16x226x226_S1x16x224x224_0_0_2_2 cc hh w]
  rw [tapWeight_slice_apply x1 0 (by omega) inb_S1x16x9x1x1_S1x16x1x1x1_0_0_0_0_0 cc hh w,
    tapWeight_slice_apply x1 1 (by omega) inb_S1x16x9x1x1_S1x16x1x1x1_0_0_1_0_0 cc hh w,
    tapWeight_slice_apply x1 2 (by omega) inb_S1x16x9x1x1_S1x16x1x1x1_0_0_2_0_0 cc hh w,
    tapWeight_slice_apply x1 3 (by omega) inb_S1x16x9x1x1_S1x16x1x1x1_0_0_3_0_0 cc hh w,
    tapWeight_slice_apply x1 4 (by omega) inb_S1x16x9x1x1_S1x16x1x1x1_0_0_4_0_0 cc hh w,
    tapWeight_slice_apply x1 5 (by omega) inb_S1x16x9x1x1_S1x16x1x1x1_0_0_5_0_0 cc hh w,
    tapWeight_slice_apply x1 6 (by omega) inb_S1x16x9x1x1_S1x16x1x1x1_0_0_6_0_0 cc hh w,
    tapWeight_slice_apply x1 7 (by omega) inb_S1x16x9x1x1_S1x16x1x1x1_0_0_7_0_0 cc hh w,
    tapWeight_slice_apply x1 8 (by omega) inb_S1x16x9x1x1_S1x16x1x1x1_0_0_8_0_0 cc hh w]
  rfl

end Cert.KernelIdeal.BlockValue

end
-- ==== Proof.KernelArray.lean ====
/-
  The kernel's result array is the dilation of its argument arrays.

  The grid has 8 × 4 points; point (b, g) stages plane group g (channels 16 g … 16 g + 15) of image b, the weights of
  the same sixteen channels, and writes back the same group of the result. The body's block is the join of the nine
  taps of each loaded plane under the loaded weights (the block module); a loaded plane is a plane of the image
  array and the loaded weights are the channel's weights in the structuring element, so what point (b, g) writes
  back is its block of the dilation of the whole arrays. The 32 blocks tile the result array, so the array after
  the run is the dilation everywhere.
-/
import proofs.«101210_j78168404787232_2_alg».proof.Proof.Gen.KernelIdeal.Value
import proofs.«101210_j78168404787232_2_alg».proof.Proof.KernelBlock
import Idealize.ShloMosaic.Lib.Pipeline.Value

set_option maxRecDepth 16384

noncomputable section

namespace Cert.KernelIdeal.ArrayValue

open Cert.KernelIdeal Cert.KernelIdeal.Gen Cert.KernelIdeal.Value Cert.KernelIdeal.BlockValue Cert.Dilation
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three windows' block indices at every grid point, decided over the 32 points: the image window and the result
    window move together over (image, plane group); the weight window follows the plane group alone; rows and columns
    are never cut. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 5) = 0 ∧ win0_1.index t (1 : Fin 5) = win0_2.index t (1 : Fin 4)
    ∧ win0_1.index t (2 : Fin 5) = 0 ∧ win0_1.index t (3 : Fin 5) = 0 ∧ win0_1.index t (4 : Fin 5) = 0
    ∧ win0_2.index t (2 : Fin 4) = 0 ∧ win0_2.index t (3 : Fin 4) = 0
    ∧ win0_2.index t (0 : Fin 4) ≤ 7 ∧ win0_2.index t (1 : Fin 4) ≤ 3 :=
  (by decide +kernel : ∀ t : Fin grid0.N, _)

/-- Every (image, plane group) is some grid point's. -/
theorem idx_onto : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- A block index has leading coordinate 0. -/
theorem blk_eq_ix4 (y : S1x16x224x224.Idx) : y = ix4 0 (y 1) (y 2) (y 3) :=
  funext fun a => match a with
    | ⟨0, _⟩ => Fin.ext (by have h : (y 0).val < 1 := (y 0).isLt; show (y 0).val = 0; omega)
    | ⟨1, _⟩ => rfl
    | ⟨2, _⟩ => rfl
    | ⟨3, _⟩ => rfl

/-- The body's block at point t, entry by entry, is the dilation of the whole argument arrays at the entry's place in
    the result array. -/
theorem block_at (c : Dev nD) (t : Fin cfg0.N) (y : S1x16x224x224.Idx) :
    out0_A_2 (F := Ideal) c (grid0.coords t) (ms0_0 t) (hs0_0 t) (ms0_1 t) (hs0_1 t) (ms0_2 t) (hs0_2 t) scM0_0
        (Memref.isWhole_whole _) (iblk m c 0 t) (iblk m c 1 t) y
      = dilate (V m c main_arg0) (V m c main_arg1) (((cfg0.win 2).blk t).view.emb y) := by
  obtain ⟨cc, hh, w, rfl⟩ : ∃ (cc : Fin 16) (hh w : Fin 224), y = ix4 0 cc hh w := ⟨y 1, y 2, y 3, blk_eq_ix4 y⟩
  refine (block_apply c (grid0.coords t) (ms0_0 t) (hs0_0 t) (ms0_1 t) (hs0_1 t) (ms0_2 t) (hs0_2 t) scM0_0
    (Memref.isWhole_whole _) (iblk m c 0 t) (iblk m c 1 t) cc hh w).trans ?_
  obtain ⟨f00, f01, f02, f03, f10, f11, f12, f13, f14, f22, f23, b0, b1⟩ := idx_facts t
  unfold dilate
  have e2 : (((cfg0.win 2).blk t).view.emb (ix4 0 cc hh w)) 2 = hh :=
    Fin.ext (by show win0_2.index t (2 : Fin 4) * 224 + 1 * hh.val = hh.val; omega)
  have e3 : (((cfg0.win 2).blk t).view.emb (ix4 0 cc hh w)) 3 = w :=
    Fin.ext (by show win0_2.index t (3 : Fin 4) * 224 + 1 * w.val = w.val; omega)
  have hp : (fun p q : Fin 224 => iblk m c 0 t (ix4 0 cc p q))
      = fun p q : Fin 224 => V m c main_arg0 (ix4 ((((cfg0.win 2).blk t).view.emb (ix4 0 cc hh w)) 0)
          ((((cfg0.win 2).blk t).view.emb (ix4 0 cc hh w)) 1) p q) :=
    funext fun p => funext fun q => by
      show V m c main_arg0 (((cfg0.win 0).blk t).view.emb (ix4 0 cc p q)) = _
      exact congrArg (V m c main_arg0) (funext fun a => Fin.ext (match a with
        | ⟨0, _⟩ => by show win0_0.index t (0 : Fin 4) * 1 + 1 * 0 = win0_2.index t (0 : Fin 4) * 1 + 1 * 0; omega
        | ⟨1, _⟩ => by show win0_0.index t (1 : Fin 4) * 16 + 1 * cc.val = win0_2.index t (1 : Fin 4) * 16 + 1 * cc.val; omega
        | ⟨2, _⟩ => by show win0_0.index t (2 : Fin 4) * 224 + 1 * p.val = p.val; omega
        | ⟨3, _⟩ => by show win0_0.index t (3 : Fin 4) * 224 + 1 * q.val = q.val; omega))
  have hw : (fun i : Fin 9 => iblk m c 1 t (ix5 0 cc i 0 0))
      = fun i : Fin 9 => V m c main_arg1 (ix5 0 ((((cfg0.win 2).blk t).view.emb (ix4 0 cc hh w)) 1) i 0 0) :=
    funext fun i => by
      show V m c main_arg1 (((cfg0.win 1).blk t).view.emb (ix5 0 cc i 0 0)) = _
      exact congrArg (V m c main_arg1) (funext fun a => Fin.ext (match a with
        | ⟨0, _⟩ => by show win0_1.index t (0 : Fin 5) * 1 + 1 * 0 = 0; omega
        | ⟨1, _⟩ => by show win0_1.index t (1 : Fin 5) * 16 + 1 * cc.val = win0_2.index t (1 : Fin 4) * 16 + 1 * cc.val; omega
        | ⟨2, _⟩ => by show win0_1.index t (2 : Fin 5) * 9 + 1 * i.val = i.val; omega
        | ⟨3, _⟩ => by show win0_1.index t (3 : Fin 5) * 1 + 1 * 0 = 0; omega
        | ⟨4, _⟩ => by show win0_1.index t (4 : Fin 5) * 1 + 1 * 0 = 0; omega))
  rw [e2, e3, hp, hw]

/-- WHAT POINT t WRITES BACK is block t of the dilation of the argument arrays as the region finds them. -/
theorem flushed_eq (c : Dev nD) (t : Fin cfg0.N) :
    (dats m 0 c).flushed 2 t = ((cfg0.win 2).blk t).view.read (Elt Ideal) (dilate (V m c main_arg0) (V m c main_arg1)) := by
  rw [flushed2_A]
  funext y
  exact block_at m c t y

/-- An index of the result array is in point t's block iff each coordinate is in the block's range on its axis. -/
theorem mem_blk (t : Fin cfg0.N) (i : S8x64x224x224.Idx) :
    i ∈ ((cfg0.win 2).blk t).view.set ↔ ∀ a : Fin 4, win0_2.index t a * S1x16x224x224.size a ≤ (i a).val
      ∧ (i a).val < win0_2.index t a * S1x16x224x224.size a + S1x16x224x224.size a := by
  show i ∈ ((View.whole main_v0).slice (win0_2.rect t)).set ↔ _
  rw [View.set_slice_whole, Rect.mem_set_unit]
  exact Iff.rfl

/-- THE BLOCKS COVER THE RESULT ARRAY: index (b, ch, h, w) is in the block of the point at image b, plane group ch / 16. -/
theorem covered (i : S8x64x224x224.Idx) :
    ∃ t : Fin cfg0.N, (cfg0.win 2).flush t = true ∧ i ∈ ((cfg0.win 2).blk t).view.set := by
  have h0 : (i 0).val < 8 := (i 0).isLt
  have h1 : (i 1).val < 64 := (i 1).isLt
  have h2 : (i 2).val < 224 := (i 2).isLt
  have h3 : (i 3).val < 224 := (i 3).isLt
  obtain ⟨t, ht⟩ := idx_onto ⟨(i 0).val, h0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 224 ≤ (i 2).val ∧ (i 2).val < win0_2.index t (2 : Fin 4) * 224 + 224; omega
  | ⟨3, _⟩ => show win0_2.index t (3 : Fin 4) * 224 ≤ (i 3).val ∧ (i 3).val < win0_2.index t (3 : Fin 4) * 224 + 224; omega

/-- THE RESULT ARRAY AFTER THE RUN is the dilation of the argument arrays. -/
theorem final (c : Dev nD) :
    (dats m 0 c).arrAt 2 cfg0.N = dilate (m ((c : Thread nD τ).loc main_arg0)) (m ((c : Thread nD τ).loc main_arg1)) :=
  (dats m 0 c).arrAt_eq_of_cover 2 (dilate (V m c main_arg0) (V m c main_arg1)) (fun t _ => flushed_eq m c t) covered

/-- THE KERNEL'S RUN: every weakly fair execution terminates with the result array at the dilation of the argument
    arrays and the argument arrays unchanged. -/
theorem run : θ_run defs (onTc (τ := τ) (main (F := Ideal))) ⟨m, fun _ => 0, ρ⟩ fun r => ∀ c : Dev nD,
      r.2.mem ((c : Thread nD τ).loc main_v0)
        = dilate (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.lean ====
/-
  The kernel and its reference compute the same array on the extended reals: the morphological dilation of the
  zero-padded image planes by a 3 × 3 additive structuring element,

      out[b, c, h, w] = max over the nine taps i of ( pad(x)[b, c, h + i / 3, w + i % 3] + k[0, c, i, 0, 0] ).

  The kernel rebuilds the padded planes of sixteen channels in a scratch buffer at every grid point, joins the nine
  shifted windows from the left starting at tap 0, and writes one block of the result per point; the 32 blocks tile
  the result. The reference pads the whole array, stacks the nine shifted windows, adds the broadcast weights and
  reduces the stacked axis with a maximum from −∞. The two differ in where the join starts and in how it is
  grouped; on the extended reals the maximum is a lattice join with neutral element −∞, commutative and
  associative, so they agree at every input — no finiteness of the inputs is used.

  The kernel's idealization rewrote no operation, so that claim is trivial; the three frames are the generated frame
  runs (the reference's, its run with the result dropped).
-/
import proofs.«101210_j78168404787232_2_alg».proof.Defs
import proofs.«101210_j78168404787232_2_alg».proof.Proof.Gen.Kernel
import proofs.«101210_j78168404787232_2_alg».proof.Proof.Gen.Kernel.Skeleton
import proofs.«101210_j78168404787232_2_alg».proof.Proof.Gen.Kernel.Launch
import proofs.«101210_j78168404787232_2_alg».proof.Proof.Gen.Kernel.Points
import proofs.«101210_j78168404787232_2_alg».proof.Proof.Gen.Kernel.Frame
import proofs.«101210_j78168404787232_2_alg».proof.Proof.Gen.KernelIdeal
import proofs.«101210_j78168404787232_2_alg».proof.Proof.Gen.KernelIdeal.Skeleton
import proofs.«101210_j78168404787232_2_alg».proof.Proof.Gen.KernelIdeal.Launch
import proofs.«101210_j78168404787232_2_alg».proof.Proof.Gen.KernelIdeal.Points
import proofs.«101210_j78168404787232_2_alg».proof.Proof.Gen.KernelIdeal.Frame
import proofs.«101210_j78168404787232_2_alg».proof.Proof.Gen.ReferenceIdeal
import proofs.«101210_j78168404787232_2_alg».proof.Proof.Gen.Pre_finite_inputs
import proofs.«101210_j78168404787232_2_alg».proof.Proof.Gen.KernelIdeal.Value
import proofs.«101210_j78168404787232_2_alg».proof.Proof.Gen.ReferenceIdeal.Run
import proofs.«101210_j78168404787232_2_alg».proof.Proof.Gen.ReferenceIdeal.Read
import proofs.«101210_j78168404787232_2_alg».proof.Proof.Dilation
import proofs.«101210_j78168404787232_2_alg».proof.Proof.RefDilation
import proofs.«101210_j78168404787232_2_alg».proof.Proof.KernelBlock
import proofs.«101210_j78168404787232_2_alg».proof.Proof.KernelArray
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read at the extended reals. -/
theorem preserves : Cert.preserves_Kernel_KernelIdeal := trivial

/-- From memories that agree on the two arguments, both programs end with the dilation of the arguments in their
    result array: the kernel block by block over its grid, the reference by its pad, stack and reduction. -/
theorem algebraic : Cert.algebraic_KernelIdeal_ReferenceIdeal := by
  intro m ρ m' ρ' _ hagree
  refine ⟨fun c => Cert.Dilation.dilate
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
